-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S4096x1024 : Shape := ⟨2, ![4096, 1024]⟩
abbrev S4096 : Shape := ⟨1, ![4096]⟩
abbrev S16 : Shape := ⟨1, ![16]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096 .f32) (main_arg5 : FVec F S16 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S16x2048x1024 .f32) (main_arg1 : FVec F S4096x1024 .f32) (main_arg2 : FVec F S4096 .f32) (main_arg3 : FVec F S4096x1024 .f32) (main_arg4 : FVec F S4096 .f32) (main_arg5 : FVec F S16 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Kernel.lean ====
abbrev S16x2048x1024 : Shape := ⟨3, ![16, 2048, 1024]⟩
abbrev S4096x1024 : Shape := ⟨2, ![4096, 1024]⟩
abbrev S4096 : Shape := ⟨1, ![4096]⟩
abbrev S16 : Shape := ⟨1, ![16]⟩
abbrev S32768x1024 : Shape := ⟨2, ![32768, 1024]⟩
abbrev S1024x4096 : Shape := ⟨2, ![1024, 4096]⟩
abbrev S16x2048 : Shape := ⟨2, ![16, 2048]⟩
abbrev S32768 : Shape := ⟨1, ![32768]⟩
abbrev S32768x1 : Shape := ⟨2, ![32768, 1]⟩
abbrev S1x4096 : Shape := ⟨2, ![1, 4096]⟩
abbrev S32768x4096 : Shape := ⟨2, ![32768, 4096]⟩
abbrev S512x1024 : Shape := ⟨2, ![512, 1024]⟩
abbrev S1024x512 : Shape := ⟨2, ![1024, 512]⟩
abbrev S512x1 : Shape := ⟨2, ![512, 1]⟩
abbrev S1x512 : Shape := ⟨2, ![1, 512]⟩
abbrev S512x512 : Shape := ⟨2, ![512, 512]⟩
abbrev S16x2048x4096 : Shape := ⟨3, ![16, 2048, 4096]⟩

abbrev nBuf : Space → Nat
  | .hbm => 16
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S4096, .f32⟩
  | .hbm, ⟨5, _⟩ => ⟨S16, .f32⟩
  | .hbm, ⟨6, _⟩ => ⟨S32768x1024, .f32⟩
  | .hbm, ⟨7, _⟩ => ⟨S1024x4096, .f32⟩
  | .hbm, ⟨8, _⟩ => ⟨S1024x4096, .f32⟩
  | .hbm, ⟨9, _⟩ => ⟨S16x2048, .f32⟩
  | .hbm, ⟨10, _⟩ => ⟨S32768, .f32⟩
  | .hbm, ⟨11, _⟩ => ⟨S32768x1, .f32⟩
  | .hbm, ⟨12, _⟩ => ⟨S1x4096, .f32⟩
  | .hbm, ⟨13, _⟩ => ⟨S1x4096, .f32⟩
  | .hbm, ⟨14, _⟩ => ⟨S32768x4096, .f32⟩
  | .hbm, ⟨15, _⟩ => ⟨S16x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x1, .f32⟩
  | .local _ .vmem, ⟨7, _⟩ => ⟨S512x1, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16x2048x1024_S32768x1024 : S16x2048x1024.ShapeCasts S32768x1024
  transposes_S4096x1024_S1024x4096_1_0 : S4096x1024.Transposes [1, 0] S1024x4096
  bcast_S16_S16x2048_0 : S16.BroadcastsInDim S16x2048 (![0] : Fin 1 → Fin S16x2048.rank)
  shapeCasts_S16x2048_S32768 : S16x2048.ShapeCasts S32768
  shapeCasts_S32768_S32768x1 : S32768.ShapeCasts S32768x1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S32768x4096_S16x2048x4096 : S32768x4096.ShapeCasts S16x2048x4096
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .f32 = 32 ∨ (Rect.block (s := S1024x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x4096.size a
  hwx0_2 : ∀ i : grid0.Coords, EltTy.bits .f32 = 32 ∨ (Rect.block (s := S1024x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S32768x1.size a
  hwx0_3 : ∀ i : grid0.Coords, EltTy.bits .f32 = 32 ∨ (Rect.block (s := S32768x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S32768x4096.size a
  hwx0_6 : ∀ i : grid0.Coords, EltTy.bits .f32 = 32 ∨ (Rect.block (s := S32768x4096) S512x512.size (cc0_transform_6 i) (hinb0_6 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S4096x1024 : Shape := ⟨2, ![4096, 1024]⟩
abbrev S4096 : Shape := ⟨1, ![4096]⟩
abbrev S16 : Shape := ⟨1, ![16]⟩
abbrev S1x4096x1024 : Shape := ⟨3, ![1, 4096, 1024]⟩
abbrev S16x1x1 : Shape := ⟨3, ![16, 1, 1]⟩
abbrev S16x4096x1024 : Shape := ⟨3, ![16, 4096, 1024]⟩
abbrev S16x2048x4096 : Shape := ⟨3, ![16, 2048, 4096]⟩
abbrev S1x4096 : Shape := ⟨2, ![1, 4096]⟩
abbrev S16x1 : Shape := ⟨2, ![16, 1]⟩
abbrev S16x4096 : Shape := ⟨2, ![16, 4096]⟩
abbrev S16x1x4096 : Shape := ⟨3, ![16, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S4096x1024, .f32⟩
  | .hbm, ⟨2, _⟩ => ⟨S4096, .f32⟩
  | .hbm, ⟨3, _⟩ => ⟨S4096x1024, .f32⟩
  | .hbm, ⟨4, _⟩ => ⟨S4096, .f32⟩
  | .hbm, ⟨5, _⟩ => ⟨S16, .f32⟩
  | .hbm, ⟨6, _⟩ => ⟨S1x4096x1024, .f32⟩
  | .hbm, ⟨7, _⟩ => ⟨S1x4096x1024, .f32⟩
  | .hbm, ⟨8, _⟩ => ⟨S16x1x1, .f32⟩
  | .hbm, ⟨9, _⟩ => ⟨S16x4096x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S16x4096x1024, .f32⟩
  | .hbm, ⟨14, _⟩ => ⟨S16x2048x4096, .f32⟩
  | .hbm, ⟨15, _⟩ => ⟨S1x4096, .f32⟩
  | .hbm, ⟨16, _⟩ => ⟨S1x4096, .f32⟩
  | .hbm, ⟨17, _⟩ => ⟨S16x1, .f32⟩
  | .hbm, ⟨18, _⟩ => ⟨S16x4096, .f32⟩
  | .hbm, ⟨19, _⟩ => ⟨S16x4096, .f32⟩
  | .hbm, ⟨20, _⟩ => ⟨S16x4096, .f32⟩
  | .hbm, ⟨21, _⟩ => ⟨S16x4096, .f32⟩
  | .hbm, ⟨22, _⟩ => ⟨S16x4096, .f32⟩
  | .hbm, ⟨23, _⟩ => ⟨S16x1x4096, .f32⟩
  | .hbm, ⟨24, _⟩ => ⟨S16x2048x4096, .f32⟩
  | .hbm, ⟨25, _⟩ => ⟨S16x2048x4096, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S4096x1024_S1x4096x1024_1_2 : S4096x1024.BroadcastsInDim S1x4096x1024 (![1, 2] : Fin 2 → Fin S1x4096x1024.rank)
  bcast_S16_S16x1x1_0 : S16.BroadcastsInDim S16x1x1 (![0] : Fin 1 → Fin S16x1x1.rank)
  bcast_S1x4096x1024_S16x4096x1024_0_1_2 : S1x4096x1024.BroadcastsInDim S16x4096x1024 (![0, 1, 2] : Fin 3 → Fin S16x4096x1024.rank)
  bcast_S16x1x1_S16x4096x1024_0_1_2 : S16x1x1.BroadcastsInDim S16x4096x1024 (![0, 1, 2] : Fin 3 → Fin S16x4096x1024.rank)
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S16x4096_S16x1x4096_0_2 : S16x4096.BroadcastsInDim S16x1x4096 (![0, 2] : Fin 2 → Fin S16x1x4096.rank)
  bcast_S16x1x4096_S16x2048x4096_0_1_2 : S16x1x4096.BroadcastsInDim S16x2048x4096 (![0, 1, 2] : Fin 3 → Fin S16x2048x4096.rank)
  dot_S16x2048x1024_S16x4096x1024_S16x2048x4096_2_2_1_1_0_0_wf : DotDims.WF S16x2048x1024 S16x4096x1024 S16x2048x4096 [2] [2] [1] [1] [0] [0]

variable [Facts₀]

def dot_S16x2048x1024_S16x4096x1024_S16x2048x4096_2_2_1_1_0_0 : DotDims S16x2048x1024 S16x4096x1024 S16x2048x4096 where
  lhsContracting := [2]
  rhsContracting := [2]
  lhsNonContracting := [1]
  rhsNonContracting := [1]
  lhsBatch := [0]
  rhsBatch := [0]
  wf := dot_S16x2048x1024_S16x4096x1024_S16x2048x4096_2_2_1_1_0_0_wf

class Facts : Prop extends Facts₀ where

variable [Facts]
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.Payload.lean ====
/-
  What the kernel body stores, read at one entry of its 512 × 512 output block.

  The body loads a 512 × 1024 block of activations X, two 1024 × 512 blocks of (transposed) weights Wt and Pt, a
  512 × 1 column of per-row rates L, and two 1 × 512 rows B and Q. At the extended reals the change to the narrower
  float format before each product is the identity, a shape cast to the same shape is the identity, each matrix product
  into the zero block is the finite sum over the contracted coordinate, the column is spread over the lanes and each row
  over the rows. So the entry at (p, q) is
      ((∑ₖ X(p,k) · Wt(k,q) − L(p,0) · ∑ₖ X(p,k) · Pt(k,q)) + B(0,q)) − L(p,0) · Q(0,q).
-/
import proofs.«169132_j72026601554094_1_alg».proof.Proof.Gen.KernelIdeal.Skeleton
import proofs.«169132_j72026601554094_1_alg».proof.Proof.LibColumn
import proofs.«169132_j72026601554094_1_alg».proof.Proof.LibPlainDot
import Idealize.ShloMosaic.Lib.ValueLayout
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

/-- The product's record: one contracted axis, the left operand's columns against the right operand's rows. -/
abbrev D := dot_S512x1024_S1024x512_S512x512_1_0_0_1_n_n

theorem D_rank : D.contr.rank = 1 := rfl
theorem D_size : D.contr.size ⟨0, by decide⟩ = 1024 := rfl

/-- The left operand is read in the output's row … -/
theorem D_l0 (i : S512x512.Idx) (q : D.contr.Idx) : (D.lhsIdx i q 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl
/-- … at the contracted coordinate; -/
theorem D_l1 (i : S512x512.Idx) (q : D.contr.Idx) : (D.lhsIdx i q 1).val = (q ⟨0, by decide⟩).val :=
  D.lhsIdx_val_of_single rfl i q
/-- the right operand at the contracted coordinate … -/
theorem D_r0 (i : S512x512.Idx) (q : D.contr.Idx) : (D.rhsIdx i q 0).val = (q ⟨0, by decide⟩).val :=
  D.rhsIdx_val_of_single rfl i q
/-- … in the output's column. -/
theorem D_r1 (i : S512x512.Idx) (q : D.contr.Idx) : (D.rhsIdx i q 1).val = (i 1).val := by
  unfold DotDims.rhsIdx
  rw [dif_neg (show ¬(1 : Fin S1024x512.rank) ∈ D.rhsBatch by decide),
    dif_pos (show (1 : Fin S1024x512.rank) ∈ D.rhsNonContracting by decide)]
  rfl

/-- One of the body's two products, at (p, q): the sum over the contracted coordinate. -/
theorem product_apply (lhs : FVec Ideal S512x1024 .bf16) (rhs : FVec Ideal S1024x512 .bf16) (p q : Fin 512) :
    matmul D none lhs rhs (constant (F := Ideal) S512x512 .f32 0x00000000#32) (ix2 p q)
      = ∑ k : Fin 1024, lhs (ix2 p k) * rhs (ix2 k q) :=
  Cert.LibPlainDot.matmul_zero_apply D D_rank D_size D_l0 D_l1 D_r0 D_r1 lhs rhs p q

/-- The stored value at (p, q). -/
theorem stored_apply (x0 : Vec Ideal S512x1024 .f32) (x1 x2 : Vec Ideal S1024x512 .f32) (x3 : Vec Ideal S512x1 .f32)
    (x4 x5 : Vec Ideal S1x512 .f32) (p q : Fin 512) :
    k0_pay1 (F := Ideal) x0 x1 x2 x3 x4 x5 (ix2 p q)
      = (((∑ k : Fin 1024, x0 (ix2 p k) * x1 (ix2 k q))
            - x3 (ix2 p (0 : Fin 1)) * ∑ k : Fin 1024, x0 (ix2 p k) * x2 (ix2 k q))
          + x4 (ix2 (0 : Fin 1) q))
        - x3 (ix2 p (0 : Fin 1)) * x5 (ix2 (0 : Fin 1) q) := by
  unfold k0_pay1
  rw [subf_apply, addf_apply, subf_apply, mulf_apply, mulf_apply]
  simp only [shapeCast_self]
  rw [product_apply, product_apply, Cert.LibColumn.broadcastTo_a1_ab_apply, broadcastTo_1b_ab_apply,
    broadcastTo_1b_ab_apply]
  rfl

end Cert.KernelIdeal.Payload
-- ==== Proof.Rows.lean ====
/-
  The region's output array as ONE function of its six operand arrays.

  The grid has 64 × 8 points; point (i, j) works on rows 512·i … 512·i+511 and columns 512·j … 512·j+511 of the
  32768 × 4096 output. It is handed rows 512·i … of the activations X (all 1024 columns) and of the rate column L,
  and columns 512·j … of the two transposed weight matrices Wt, Pt (all 1024 rows) and of the rows B, Q. What it
  writes back at (p, q) of its block is the body's stored value, so entry (r, o) of the output, r = 512·i + p,
  o = 512·j + q, is
      ((∑ₖ X(r,k) · Wt(k,o) − L(r,0) · ∑ₖ X(r,k) · Pt(k,o)) + B(0,o)) − L(r,0) · Q(0,o):
  each block is the restriction of this one function, and the 512 blocks tile the array, so the array ends
  holding it.
-/
import proofs.«169132_j72026601554094_1_alg».proof.Proof.Gen.KernelIdeal.Frame
import proofs.«169132_j72026601554094_1_alg».proof.Proof.Payload
import Idealize.ShloMosaic.Lib.Pipeline.Value
import Idealize.ShloMosaic.Lib.ValueIdx

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Entry (r, o) of the output from the six operand arrays. -/
def rowEntry (X : Vec Ideal S32768x1024 .f32) (Wt Pt : Vec Ideal S1024x4096 .f32) (L : Vec Ideal S32768x1 .f32)
    (B Q : Vec Ideal S1x4096 .f32) (r : Fin 32768) (o : Fin 4096) : Elt Ideal .f32 :=
  (((∑ k : Fin 1024, X (ix2 r k) * Wt (ix2 k o)) - L (ix2 r (0 : Fin 1)) * ∑ k : Fin 1024, X (ix2 r k) * Pt (ix2 k o))
      + B (ix2 (0 : Fin 1) o))
    - L (ix2 r (0 : Fin 1)) * Q (ix2 (0 : Fin 1) o)

/-- The whole output array. -/
def rowForm (X : Vec Ideal S32768x1024 .f32) (Wt Pt : Vec Ideal S1024x4096 .f32) (L : Vec Ideal S32768x1 .f32)
    (B Q : Vec Ideal S1x4096 .f32) : Vec Ideal S32768x4096 .f32 :=
  fun i => rowEntry X Wt Pt L B Q ⟨(i 0).val, (i 0).isLt⟩ ⟨(i 1).val, (i 1).isLt⟩

variable (m : (ℓ : Loc nD τ sig) → Buf (Elt Ideal) ℓ)

/-- The output array's function of the operand arrays as the region finds them. -/
def outArr (c : Dev nD) : Vec Ideal S32768x4096 .f32 :=
  rowForm (V m c main_v0) (V m c main_v1) (V m c main_v2) (V m c main_v5) (V m c main_v6) (V m c main_v7)

theorem hz : (![0, 0] : Fin 2 → Nat) = fun _ => 0 := funext fun a => by fin_cases a <;> rfl

/-- The printed block-index maps, decided over the 512 points: the row operands move with the output's block row and
    the column operands with its block column, each at block 0 on its full axis; the output's block is
    (point / 8, point mod 8). -/
theorem idx_facts : ∀ t : Fin cfg0.N,
      win0_0.index t (0 : Fin 2) = win0_6.index t (0 : Fin 2) ∧ win0_0.index t (1 : Fin 2) = 0
    ∧ win0_1.index t (0 : Fin 2) = 0 ∧ win0_1.index t (1 : Fin 2) = win0_6.index t (1 : Fin 2)
    ∧ win0_2.index t (0 : Fin 2) = 0 ∧ win0_2.index t (1 : Fin 2) = win0_6.index t (1 : Fin 2)
    ∧ win0_3.index t (0 : Fin 2) = win0_6.index t (0 : Fin 2) ∧ win0_3.index t (1 : Fin 2) = 0
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) = t.val / 8 ∧ win0_6.index t (1 : Fin 2) = t.val % 8 :=
  (by decide +kernel : ∀ t : Fin grid0.N, _)

/-- Equal rows and columns give equal entries. -/
theorem rowEntry_congr (X : Vec Ideal S32768x1024 .f32) (Wt Pt : Vec Ideal S1024x4096 .f32) (L : Vec Ideal S32768x1 .f32)
    (B Q : Vec Ideal S1x4096 .f32) {r r' : Fin 32768} {o o' : Fin 4096} (hr : r.val = r'.val) (ho : o.val = o'.val) :
    rowEntry X Wt Pt L B Q r o = rowEntry X Wt Pt L B Q r' o' := by
  obtain rfl : r = r' := Fin.ext hr
  obtain rfl : o = o' := Fin.ext ho
  rfl

/-- What point t writes back is block t of the one function: the body's stored value at (p, q), with each input block
    read where the output block's rectangle says. A block's coordinate is block index × block size + the coordinate
    inside the block. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  unfold out0_6
  rw [View.canon_unit_zero hz]
  simp only [View.ld_unit_zero (S := S512x1024) hz, View.ld_unit_zero (S := S1024x512) hz,
    View.ld_unit_zero (S := S512x1) hz, View.ld_unit_zero (S := S1x512) hz]
  funext j
  obtain ⟨p, q, rfl⟩ : ∃ (p q : Fin 512), j = ix2 p q := ⟨j 0, j 1, eq_ix2 j⟩
  refine (Cert.KernelIdeal.Payload.stored_apply (iblk m c 0 t) (iblk m c 1 t) (iblk m c 2 t) (iblk m c 3 t)
    (iblk m c 4 t) (iblk m c 5 t) p q).trans ?_
  obtain ⟨e00, e01, e10, e11, e20, e21, e30, e31, e40, e41, e50, e51, e60, e61⟩ := idx_facts t
  have ht : t.val < 512 := Nat.lt_of_lt_of_eq t.isLt N_0
  have hp : p.val < 512 := p.isLt
  have hq : q.val < 512 := q.isLt
  have hR : win0_6.index t (0 : Fin 2) * 512 + p.val < 32768 := by omega
  have hO : win0_6.index t (1 : Fin 2) * 512 + q.val < 4096 := by omega
  have hx : ∀ k : Fin 1024, iblk m c 0 t (ix2 p k) = V m c main_v0 (ix2 ⟨_, hR⟩ k) := fun k => by
    show V m c main_v0 (((cfg0.win 0).blk t).view.emb (ix2 p k)) = _
    refine congrArg _ (funext fun a => Fin.ext ?_)
    match a with
    | ⟨0, _⟩ => show win0_0.index t (0 : Fin 2) * 512 + 1 * p.val = win0_6.index t (0 : Fin 2) * 512 + p.val; omega
    | ⟨1, _⟩ => show win0_0.index t (1 : Fin 2) * 1024 + 1 * k.val = k.val; omega
  have hw : ∀ k : Fin 1024, iblk m c 1 t (ix2 k q) = V m c main_v1 (ix2 k ⟨_, hO⟩) := fun k => by
    show V m c main_v1 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 512 + 1 * q.val = win0_6.index t (1 : Fin 2) * 512 + q.val; omega
  have hg : ∀ k : Fin 1024, iblk m c 2 t (ix2 k q) = V m c main_v2 (ix2 k ⟨_, hO⟩) := fun k => by
    show V m c main_v2 (((cfg0.win 2).blk t).view.emb (ix2 k q)) = _
    refine congrArg _ (funext fun a => Fin.ext ?_)
    match a with
    | ⟨0, _⟩ => show win0_2.index t (0 : Fin 2) * 1024 + 1 * k.val = k.val; omega
    | ⟨1, _⟩ => show win0_2.index t (1 : Fin 2) * 512 + 1 * q.val = win0_6.index t (1 : Fin 2) * 512 + q.val; omega
  have hl : iblk m c 3 t (ix2 p (0 : Fin 1)) = V m c main_v5 (ix2 ⟨_, hR⟩ (0 : Fin 1)) := by
    show V m c main_v5 (((cfg0.win 3).blk t).view.emb (ix2 p (0 : Fin 1))) = _
    refine congrArg _ (funext fun a => Fin.ext ?_)
    match a with
    | ⟨0, _⟩ => show win0_3.index t (0 : Fin 2) * 512 + 1 * p.val = win0_6.index t (0 : Fin 2) * 512 + p.val; omega
    | ⟨1, _⟩ => show win0_3.index t (1 : Fin 2) * 1 + 1 * 0 = 0; omega
  have hb : iblk m c 4 t (ix2 (0 : Fin 1) q) = V m c main_v6 (ix2 (0 : Fin 1) ⟨_, hO⟩) := by
    show V m c main_v6 (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 512 + 1 * q.val = win0_6.index t (1 : Fin 2) * 512 + q.val; omega
  have hd : iblk m c 5 t (ix2 (0 : Fin 1) q) = V m c main_v7 (ix2 (0 : Fin 1) ⟨_, hO⟩) := by
    show V m c main_v7 (((cfg0.win 5).blk t).view.emb (ix2 (0 : Fin 1) q)) = _
    refine congrArg _ (funext fun a => Fin.ext ?_)
    match a with
    | ⟨0, _⟩ => show win0_5.index t (0 : Fin 2) * 1 + 1 * 0 = 0; omega
    | ⟨1, _⟩ => show win0_5.index t (1 : Fin 2) * 512 + 1 * q.val = win0_6.index t (1 : Fin 2) * 512 + q.val; omega
  have hout : ((cfg0.win 6).blk t).view.read (Elt Ideal) (outArr m c) (ix2 p q)
      = rowEntry (V m c main_v0) (V m c main_v1) (V m c main_v2) (V m c main_v5) (V m c main_v6) (V m c main_v7)
          ⟨_, hR⟩ ⟨_, hO⟩ := by
    show rowEntry (V m c main_v0) (V m c main_v1) (V m c main_v2) (V m c main_v5) (V m c main_v6) (V m c main_v7) _ _ = _
    refine rowEntry_congr _ _ _ _ _ _ ?_ ?_
    · show win0_6.index t (0 : Fin 2) * 512 + 1 * p.val = win0_6.index t (0 : Fin 2) * 512 + p.val; omega
    · show win0_6.index t (1 : Fin 2) * 512 + 1 * q.val = win0_6.index t (1 : Fin 2) * 512 + q.val; omega
  refine Eq.trans ?_ hout.symm
  unfold rowEntry
  simp only [hx, hw, hg, hl, hb, hd]

/-- An index of the output array is in point t's block iff each coordinate is in the block's range on its axis. -/
theorem mem_blk (t : Fin cfg0.N) (i : S32768x4096.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v8).slice (win0_6.rect t)).set ↔ _
  rw [View.set_slice_whole, Rect.mem_set_unit]
  exact Iff.rfl

/-- The blocks tile the array: entry (r, o) is in the block of the point 8·(r / 512) + o / 512. -/
theorem cover (i : S32768x4096.Idx) :
    ∃ t : Fin cfg0.N, (cfg0.win 6).flush t = true ∧ i ∈ ((cfg0.win 6).blk t).view.set := by
  have hi0 : (i 0).val < 32768 := (i 0).isLt
  have hi1 : (i 1).val < 4096 := (i 1).isLt
  have hlt : (i 0).val / 512 * 8 + (i 1).val / 512 < cfg0.N := by rw [show cfg0.N = 512 from N_0]; omega
  obtain ⟨-, -, -, -, -, -, -, -, -, -, -, -, e60, e61⟩ := idx_facts ⟨(i 0).val / 512 * 8 + (i 1).val / 512, hlt⟩
  refine ⟨⟨(i 0).val / 512 * 8 + (i 1).val / 512, hlt⟩, flush0_6 _, ?_⟩
  rw [mem_blk]
  intro a
  match a with
  | ⟨0, _⟩ =>
    show win0_6.index ⟨(i 0).val / 512 * 8 + (i 1).val / 512, hlt⟩ (0 : Fin 2) * 512 ≤ (i 0).val
      ∧ (i 0).val < win0_6.index ⟨(i 0).val / 512 * 8 + (i 1).val / 512, hlt⟩ (0 : Fin 2) * 512 + 512
    rw [e60]
    show ((i 0).val / 512 * 8 + (i 1).val / 512) / 8 * 512 ≤ (i 0).val
      ∧ (i 0).val < ((i 0).val / 512 * 8 + (i 1).val / 512) / 8 * 512 + 512
    omega
  | ⟨1, _⟩ =>
    show win0_6.index ⟨(i 0).val / 512 * 8 + (i 1).val / 512, hlt⟩ (1 : Fin 2) * 512 ≤ (i 1).val
      ∧ (i 1).val < win0_6.index ⟨(i 0).val / 512 * 8 + (i 1).val / 512, hlt⟩ (1 : Fin 2) * 512 + 512
    rw [e61]
    show ((i 0).val / 512 * 8 + (i 1).val / 512) % 8 * 512 ≤ (i 1).val
      ∧ (i 1).val < ((i 0).val / 512 * 8 + (i 1).val / 512) % 8 * 512 + 512
    omega

/-- The output array after the run is the one function of the operand arrays. -/
theorem final (c : Dev nD) : (dats m 0 c).arrAt 6 cfg0.N = outArr m c :=
  (dats m 0 c).arrAt_eq_of_cover 6 (outArr m c) (fun t _ => flushed_eq m c t) cover

end Cert.KernelIdeal.Rows
-- ==== Proof.Operands.lean ====
/-
  The six operand arrays of the region, as the host lines in front of it leave them, read at an index.

  The activations [16, 2048, 1024] are flattened to 32768 rows: row r = 2048·b + s holds x(b, s, ·). The two weight
  matrices [4096, 1024] are transposed: entry (k, o) holds w(o, k). The per-sample rate [16] is repeated 2048 times
  and laid out as a column of 32768 rows: row 2048·b + s holds lr(b). The two bias vectors [4096] become single
  rows: entry (0, o) holds bias(o).
-/
import proofs.«169132_j72026601554094_1_alg».proof.Proof.Gen.KernelIdeal.Frame
import proofs.«169132_j72026601554094_1_alg».proof.Proof.LibColumn
import Idealize.ShloMosaic.Lib.StableHlo.Run
import Idealize.ShloMosaic.Lib.ValueLayout
import Idealize.ShloMosaic.Lib.Pipeline.Value
import Idealize.ShloMosaic.Lib.ValueIdx

noncomputable section

namespace Cert.KernelIdeal.Operands

open Idealize.ShloMosaic Idealize.ShloMosaic.TcCoe Idealize.ShloMosaic.ValueIdx Idealize.SL.Sem
open Idealize.ShloMosaic.StableHlo
open Cert.KernelIdeal Cert.KernelIdeal.Gen

/-! ## Each layout operation at an index -/

/-- The flattened activations: row 2048·b + s, column k, is x(b, s, k). -/
theorem flat_apply (x : Vec Ideal S16x2048x1024 .f32) (b : Fin 16) (s : Fin 2048) (k : Fin 1024) (r : Fin 32768)
    (hr : r.val = b.val * 2048 + s.val) :
    shapeCast S32768x1024 x shapeCasts_S16x2048x1024_S32768x1024 (ix2 r k) = x (ix3 b s k) :=
  shapeCast_apply x _ _ _ (by
    rw [Shape.rowMajor_val_three, Shape.rowMajor_val_two]
    show (b.val * 2048 + s.val) * 1024 + k.val = r.val * 1024 + k.val
    rw [hr])

/-- A transposed weight matrix: entry (k, o) is w(o, k). -/
theorem transposed_apply (w : Vec Ideal S4096x1024 .f32) (k : Fin 1024) (o : Fin 4096) :
    transpose S1024x4096 [1, 0] w transposes_S4096x1024_S1024x4096_1_0 (ix2 k o) = w (ix2 o k) :=
  transpose_ix2_apply w _ k o

/-- The rate column: row 2048·b + s is lr(b). -/
theorem rate_apply (l : Vec Ideal S16 .f32) (b : Fin 16) (s : Fin 2048) (r : Fin 32768) (hr : r.val = b.val * 2048 + s.val) :
    shapeCast S32768x1 (shapeCast S32768 (broadcastInDim S16x2048 ![0] bcast_S16_S16x2048_0 l) shapeCasts_S16x2048_S32768)
        shapeCasts_S32768_S32768x1 (ix2 r (0 : Fin 1)) = l (ix1 b) := by
  rw [Cert.LibColumn.shapeCast_a_a1_apply]
  refine (shapeCast_apply _ shapeCasts_S16x2048_S32768 (ix1 r) (ix2 b s) (by
    rw [Shape.rowMajor_val_two, Shape.rowMajor_val_one]
    show b.val * 2048 + s.val = r.val
    rw [hr])).trans ?_
  exact broadcastInDim_apply _ bcast_S16_S16x2048_0 l (ix2 b s) (ix1 b) (fun a => match a with
    | ⟨0, _⟩ => by show b.val = if (16 : Nat) = 1 then 0 else b.val; rw [if_neg (by decide)])

/-- A bias vector as a single row: entry (0, o) is bias(o). -/
theorem biasRow_apply (v : Vec Ideal S4096 .f32) (o : Fin 4096) :
    shapeCast S1x4096 v shapeCasts_S4096_S1x4096 (ix2 (0 : Fin 1) o) = v (ix1 o) :=
  shapeCast_a_1a_apply v _ 0 o

/-! ## The operand arrays as the region finds them -/

variable (m : (ℓ : Loc nD τ sig) → Buf (Elt Ideal) ℓ)

theorem V_v0 (c : Dev nD) : (V m c main_v0 : Vec Ideal S32768x1024 .f32)
    = shapeCast S32768x1024 (m ((c : Thread nD τ).loc main_arg0)) shapeCasts_S16x2048x1024_S32768x1024 := by
  show StableHlo.after hostOps0 (fun b => m (c, b)) (Proc.devRef .tc main_v0) = _
  after_results
  rfl

theorem V_v1 (c : Dev nD) : (V m c main_v1 : Vec Ideal S1024x4096 .f32)
    = transpose S1024x4096 [1, 0] (m ((c : Thread nD τ).loc main_arg1)) transposes_S4096x1024_S1024x4096_1_0 := by
  show StableHlo.after hostOps0 (fun b => m (c, b)) (Proc.devRef .tc main_v1) = _
  after_results

theorem V_v2 (c : Dev nD) : (V m c main_v2 : Vec Ideal S1024x4096 .f32)
    = transpose S1024x4096 [1, 0] (m ((c : Thread nD τ).loc main_arg3)) transposes_S4096x1024_S1024x4096_1_0 := by
  show StableHlo.after hostOps0 (fun b => m (c, b)) (Proc.devRef .tc main_v2) = _
  after_results

theorem V_v5 (c : Dev nD) : (V m c main_v5 : Vec Ideal S32768x1 .f32)
    = shapeCast S32768x1 (shapeCast S32768 (broadcastInDim S16x2048 ![0] bcast_S16_S16x2048_0 (m ((c : Thread nD τ).loc main_arg5)))
        shapeCasts_S16x2048_S32768) shapeCasts_S32768_S32768x1 := by
  show StableHlo.after hostOps0 (fun b => m (c, b)) (Proc.devRef .tc main_v5) = _
  after_results
  rfl

theorem V_v6 (c : Dev nD) : (V m c main_v6 : Vec Ideal S1x4096 .f32)
    = shapeCast S1x4096 (m ((c : Thread nD τ).loc main_arg2)) shapeCasts_S4096_S1x4096 := by
  show StableHlo.after hostOps0 (fun b => m (c, b)) (Proc.devRef .tc main_v6) = _
  after_results
  rfl

theorem V_v7 (c : Dev nD) : (V m c main_v7 : Vec Ideal S1x4096 .f32)
    = shapeCast S1x4096 (m ((c : Thread nD τ).loc main_arg4)) shapeCasts_S4096_S1x4096 := by
  show StableHlo.after hostOps0 (fun b => m (c, b)) (Proc.devRef .tc main_v7) = _
  after_results
  rfl

/-! ## The operand arrays read at an index, in terms of the program's arguments -/

/-- Row 2048·b + s, column k, of the activations operand is x(b, s, k). -/
theorem acts_read (c : Dev nD) (b : Fin 16) (s : Fin 2048) (k : Fin 1024) (r : Fin 32768) (hr : r.val = b.val * 2048 + s.val) :
    V m c main_v0 (ix2 r k) = m ((c : Thread nD τ).loc main_arg0) (ix3 b s k) := by
  rw [V_v0]; exact flat_apply _ b s k r hr

/-- Entry (k, o) of the first weight operand is weight(o, k). -/
theorem weightT_read (c : Dev nD) (k : Fin 1024) (o : Fin 4096) :
    V m c main_v1 (ix2 k o) = m ((c : Thread nD τ).loc main_arg1) (ix2 o k) := by
  rw [V_v1]; exact transposed_apply _ k o

/-- Entry (k, o) of the second weight operand is prev_weight_grad(o, k). -/
theorem gradT_read (c : Dev nD) (k : Fin 1024) (o : Fin 4096) :
    V m c main_v2 (ix2 k o) = m ((c : Thread nD τ).loc main_arg3) (ix2 o k) := by
  rw [V_v2]; exact transposed_apply _ k o

/-- Row 2048·b + s of the rate column is lr(b). -/
theorem rate_read (c : Dev nD) (b : Fin 16) (s : Fin 2048) (r : Fin 32768) (hr : r.val = b.val * 2048 + s.val) :
    V m c main_v5 (ix2 r (0 : Fin 1)) = m ((c : Thread nD τ).loc main_arg5) (ix1 b) := by
  rw [V_v5]; exact rate_apply _ b s r hr

/-- Entry (0, o) of the bias row is bias(o). -/
theorem bias_read (c : Dev nD) (o : Fin 4096) :
    V m c main_v6 (ix2 (0 : Fin 1) o) = m ((c : Thread nD τ).loc main_arg2) (ix1 o) := by
  rw [V_v6]; exact biasRow_apply _ o

/-- Entry (0, o) of the bias-gradient row is prev_bias_grad(o). -/
theorem biasGrad_read (c : Dev nD) (o : Fin 4096) :
    V m c main_v7 (ix2 (0 : Fin 1) o) = m ((c : Thread nD τ).loc main_arg4) (ix1 o) := by
  rw [V_v7]; exact biasRow_apply _ o

end Cert.KernelIdeal.Operands
-- ==== Proof.RefEntry.lean ====
/-
  The reference's result read at one entry.

  The reference forms, per sample b, the shifted weight w(o, k) − p(o, k) · lr(b) and the shifted bias
  bias(o) − pbg(o) · lr(b), contracts the activations against the shifted weight over k, and adds the shifted bias
  (spread over the 2048 positions of the sample). Every step but the contraction is a broadcast or an entrywise
  operation, so the entry at (b, s, o) is
      ∑ₖ x(b, s, k) · (w(o, k) − p(o, k) · lr(b)) + (bias(o) − pbg(o) · lr(b)).
-/
import proofs.«169132_j72026601554094_1_alg».proof.Proof.Gen.ReferenceIdeal.Read
import Idealize.ShloMosaic.Lib.ValueIdx
import Idealize.ShloMosaic.PureOps.Ideal

noncomputable section

namespace Cert.ReferenceIdeal.Entry

open Idealize.ShloMosaic Idealize.ShloMosaic.ValueIdx Cert.ReferenceIdeal Cert.ReferenceIdeal.Read

/-- The reference's entry at (b, s, o), from the six arguments. -/
def refEntry (x0 : Vec Ideal S16x2048x1024 .f32) (x1 : Vec Ideal S4096x1024 .f32) (x2 : Vec Ideal S4096 .f32)
    (x3 : Vec Ideal S4096x1024 .f32) (x4 : Vec Ideal S4096 .f32) (x5 : Vec Ideal S16 .f32)
    (b : Fin 16) (s : Fin 2048) (o : Fin 4096) : Elt Ideal .f32 :=
  (∑ k : Fin 1024, x0 (ix3 b s k) * (x1 (ix2 o k) - x3 (ix2 o k) * x5 (ix1 b)))
    + (x2 (ix1 o) - x4 (ix1 o) * x5 (ix1 b))

variable (b : Fin 16) (s : Fin 2048) (o : Fin 4096) (k : Fin 1024)

/-! The composed index maps of the broadcasts, coordinate by coordinate. -/

theorem at_x : lidx_main_v8 (ix3 b s o) k = ix3 b s k :=
  funext fun a => Fin.ext (by match a with | ⟨0, _⟩ => rfl | ⟨1, _⟩ => rfl | ⟨2, _⟩ => rfl)
theorem at_w : idx_main_v0 (idx_main_v6 (ridx_main_v8 (ix3 b s o) k)) = ix2 o k :=
  funext fun a => Fin.ext (by match a with | ⟨0, _⟩ => rfl | ⟨1, _⟩ => rfl)
theorem at_p : idx_main_v1 (idx_main_v3 (ridx_main_v8 (ix3 b s o) k)) = ix2 o k :=
  funext fun a => Fin.ext (by match a with | ⟨0, _⟩ => rfl | ⟨1, _⟩ => rfl)
theorem at_lr : idx_main_v2 (idx_main_v4 (ridx_main_v8 (ix3 b s o) k)) = ix1 b :=
  funext fun a => Fin.ext (by match a with | ⟨0, _⟩ => rfl)
theorem at_bias : idx_main_v9 (idx_main_v15 (idx_main_v17 (idx_main_v18 (ix3 b s o)))) = ix1 o :=
  funext fun a => Fin.ext (by match a with | ⟨0, _⟩ => rfl)
theorem at_pbg : idx_main_v10 (idx_main_v12 (idx_main_v17 (idx_main_v18 (ix3 b s o)))) = ix1 o :=
  funext fun a => Fin.ext (by match a with | ⟨0, _⟩ => rfl)
theorem at_lr' : idx_main_v11 (idx_main_v13 (idx_main_v17 (idx_main_v18 (ix3 b s o)))) = ix1 b :=
  funext fun a => Fin.ext (by match a with | ⟨0, _⟩ => rfl)

/-- The reference's result at (b, s, o). -/
theorem result_apply (x0 : Vec Ideal S16x2048x1024 .f32) (x1 : Vec Ideal S4096x1024 .f32) (x2 : Vec Ideal S4096 .f32)
    (x3 : Vec Ideal S4096x1024 .f32) (x4 : Vec Ideal S4096 .f32) (x5 : Vec Ideal S16 .f32) :
    val_main_v19 (F := Ideal) x0 x1 x2 x3 x4 x5 (ix3 b s o) = refEntry x0 x1 x2 x3 x4 x5 b s o := by
  rw [val_main_v19_apply, val_main_v8_apply, val_main_v18_apply, val_main_v17_apply, val_main_v16_apply,
    val_main_v15_apply, val_main_v9_apply, val_main_v14_apply, val_main_v12_apply, val_main_v10_apply,
    val_main_v13_apply, val_main_v11_apply]
  simp only [val_main_v7_apply, val_main_v6_apply, val_main_v0_apply, val_main_v5_apply, val_main_v3_apply,
    val_main_v1_apply, val_main_v4_apply, val_main_v2_apply, Ideal.addf_def, Ideal.subf_def, Ideal.mulf_def,
    at_x, at_w, at_p, at_lr, at_bias, at_pbg, at_lr']
  rfl

end Cert.ReferenceIdeal.Entry
-- ==== Proof.Spec.lean ====
/-
  The one algebraic law of this certificate, over any finite index type.

  A linear layer whose weight is shifted, per sample, by a multiple of a second matrix,
      out = ∑ₖ a k · (w k − p k · l) + (β − q · l),
  is the difference of two plain products, rescaled and recombined:
      out = ((∑ₖ a k · w k − l · ∑ₖ a k · p k) + β) − l · q.
  Over the reals this is distributivity of the product over the sum, a factor moved across a finite sum, and a
  regrouping of a difference. On the extended reals none of the three holds at an infinity, so the law is stated for
  entries that are real numbers: both sides are then coercions of real expressions, and the real expressions agree.
-/
import Mathlib.Data.EReal.Operations
import Mathlib.Algebra.BigOperators.Ring.Finset
import Mathlib.Tactic.Ring

namespace Cert.Spec

open scoped BigOperators

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: the shifted weight's product splits into the two plain products. -/
theorem law_real {ι : Type*} [Fintype ι] (a w p : ι → ℝ) (l β q : ℝ) :
    (∑ k, a k * (w k - p k * l)) + (β - q * l)
      = (((∑ k, a k * w k) - l * ∑ k, a k * p k) + β) - l * q := by
  have e : ∑ k, a k * (w k - p k * l) = (∑ k, a k * w k) - l * ∑ k, a k * p k := by
    rw [Finset.mul_sum, ← Finset.sum_sub_distrib]
    exact Finset.sum_congr rfl fun k _ => by ring
  rw [e]; ring

/-- The law on the extended reals, at real entries: each side is the coercion of its real expression. -/
theorem law_coe {ι : Type*} [Fintype ι] (a w p : ι → ℝ) (l β q : ℝ) :
    (∑ k, (a k : EReal) * ((w k : EReal) - (p k : EReal) * (l : EReal))) + ((β : EReal) - (q : EReal) * (l : EReal))
      = (((∑ k, (a k : EReal) * (w k : EReal)) - (l : EReal) * ∑ k, (a k : EReal) * (p k : EReal)) + (β : EReal))
          - (l : EReal) * (q : EReal) := by
  have hL : (∑ k, (a k : EReal) * ((w k : EReal) - (p k : EReal) * (l : EReal))) + ((β : EReal) - (q : EReal) * (l : EReal))
      = (((∑ k, a k * (w k - p k * l)) + (β - q * l) : ℝ) : EReal) := by
    rw [EReal.coe_add, coe_sum, EReal.coe_sub, EReal.coe_mul]
    refine congrArg (· + _) (Finset.sum_congr rfl fun k _ => ?_)
    rw [EReal.coe_mul, EReal.coe_sub, EReal.coe_mul]
  have hR : (((∑ k, (a k : EReal) * (w k : EReal)) - (l : EReal) * ∑ k, (a k : EReal) * (p k : EReal)) + (β : EReal))
          - (l : EReal) * (q : EReal)
      = (((((∑ k, a k * w k) - l * ∑ k, a k * p k) + β) - l * q : ℝ) : EReal) := by
    rw [EReal.coe_sub, EReal.coe_add, EReal.coe_sub, EReal.coe_mul, EReal.coe_mul, coe_sum, coe_sum]
    simp only [EReal.coe_mul]
  rw [hL, hR, law_real]

/-- The law for extended-real data whose entries are known to be real numbers. -/
theorem law_of_real {ι : Type*} [Fintype ι] (A W P : ι → EReal) (L B Q : EReal)
    (hA : ∀ k, ∃ r : ℝ, A k = (r : EReal)) (hW : ∀ k, ∃ r : ℝ, W k = (r : EReal)) (hP : ∀ k, ∃ r : ℝ, P k = (r : EReal))
    (hL : ∃ r : ℝ, L = (r : EReal)) (hB : ∃ r : ℝ, B = (r : EReal)) (hQ : ∃ r : ℝ, Q = (r : EReal)) :
    (∑ k, A k * (W k - P k * L)) + (B - Q * L)
      = (((∑ k, A k * W k) - L * ∑ k, A k * P k) + B) - L * Q := by
  choose a ha using hA
  choose w hw using hW
  choose p hp using hP
  obtain ⟨l, rfl⟩ := hL
  obtain ⟨β, rfl⟩ := hB
  obtain ⟨q, rfl⟩ := hQ
  obtain rfl : A = fun k => (a k : EReal) := funext ha
  obtain rfl : W = fun k => (w k : EReal) := funext hw
  obtain rfl : P = fun k => (p k : EReal) := funext hp
  exact law_coe a w p l β q

end Cert.Spec
-- ==== Proof.Bridge.lean ====
/-
  The two programs compute one function.

  After the region the kernel's program views its 32768 × 4096 output as [16, 2048, 4096]: entry (b, s, o) is the
  output's entry in row 2048·b + s, column o. Reading the six operand arrays back to the program's arguments, that
  entry is
      ((∑ₖ x(b,s,k) · w(o,k) − lr(b) · ∑ₖ x(b,s,k) · p(o,k)) + bias(o)) − lr(b) · pbg(o),
  while the reference's is
      ∑ₖ x(b,s,k) · (w(o,k) − p(o,k) · lr(b)) + (bias(o) − pbg(o) · lr(b)).
  When every argument entry is a real number the two agree, by the law of distributivity carried to the
  extended reals; without that hypothesis they need not (an infinite rate against a zero sum).
-/
import proofs.«169132_j72026601554094_1_alg».proof.Proof.Rows
import proofs.«169132_j72026601554094_1_alg».proof.Proof.Operands
import proofs.«169132_j72026601554094_1_alg».proof.Proof.RefEntry
import proofs.«169132_j72026601554094_1_alg».proof.Proof.Spec
import Idealize.ShloMosaic.Lib.StableHlo.Run
import Idealize.ShloMosaic.Lib.Pipeline.Value
import Idealize.ShloMosaic.Lib.ValueIdx

noncomputable section

namespace Cert.KernelIdeal.Bridge

open Idealize.ShloMosaic Idealize.ShloMosaic.TcCoe Idealize.ShloMosaic.ValueIdx Idealize.SL.Sem
open Idealize.ShloMosaic.StableHlo
open Cert.KernelIdeal Cert.KernelIdeal.Gen Cert.KernelIdeal.Rows Cert.KernelIdeal.Operands

variable (m : (ℓ : Loc nD τ sig) → Buf (Elt Ideal) ℓ)

/-- The kernel's entry at (b, s, o), from the six arguments. -/
def kernelEntry (x0 : Vec Ideal S16x2048x1024 .f32) (x1 : Vec Ideal S4096x1024 .f32) (x2 : Vec Ideal S4096 .f32)
    (x3 : Vec Ideal S4096x1024 .f32) (x4 : Vec Ideal S4096 .f32) (x5 : Vec Ideal S16 .f32)
    (b : Fin 16) (s : Fin 2048) (o : Fin 4096) : Elt Ideal .f32 :=
  (((∑ k : Fin 1024, x0 (ix3 b s k) * x1 (ix2 o k)) - x5 (ix1 b) * ∑ k : Fin 1024, x0 (ix3 b s k) * x3 (ix2 o k))
      + x2 (ix1 o))
    - x5 (ix1 b) * x4 (ix1 o)

/-- The region's output at row 2048·b + s, column o, from the arguments. -/
theorem outArr_apply (c : Dev nD) (b : Fin 16) (s : Fin 2048) (o : Fin 4096) (r : Fin 32768)
    (hr : r.val = b.val * 2048 + s.val) :
    outArr m c (ix2 r o) = kernelEntry (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) b s o := by
  unfold outArr rowForm
  refine (rowEntry_congr _ _ _ _ _ _ (r' := r) (o' := o) rfl rfl).trans ?_
  unfold rowEntry kernelEntry
  simp only [acts_read m c b s _ r hr, weightT_read m c, gradT_read m c, rate_read m c b s r hr, bias_read m c,
    biasGrad_read m c]

/-- The output viewed as [16, 2048, 4096], at (b, s, o). -/
theorem viewed_apply (y : Vec Ideal S32768x4096 .f32) (b : Fin 16) (s : Fin 2048) (o : Fin 4096) (r : Fin 32768)
    (hr : r.val = b.val * 2048 + s.val) :
    shapeCast S16x2048x4096 y shapeCasts_S32768x4096_S16x2048x4096 (ix3 b s o) = y (ix2 r o) :=
  shapeCast_apply y _ _ _ (by
    rw [Shape.rowMajor_val_two, Shape.rowMajor_val_three]
    show r.val * 4096 + o.val = (b.val * 2048 + s.val) * 4096 + o.val
    rw [hr])

/-- What the lines after the region leave in the program's result: the output array, viewed as [16, 2048, 4096]. -/
theorem tail_eq (c : Dev nD) :
    Pipeline.afterTail₀ cfgs (dats m) 0 (V0 m) [hostOps1] c main_v9
      = shapeCast S16x2048x4096 (outArr m c) shapeCasts_S32768x4096_S16x2048x4096 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = outArr m c :=
    (Pipeline.withArrays_arr spec0 launch0.win.arr_inj c _ _ 6).trans (final m c)
  exact congrArg (fun a : Vec Ideal S32768x4096 .f32 => shapeCast S16x2048x4096 a shapeCasts_S32768x4096_S16x2048x4096) e

/-- The kernel's result is the reference's, entry by entry, when every argument entry is a real number. -/
theorem result_eq_reference (c : Dev nD)
    (h0 : ∀ i, ∃ r : ℝ, m ((c : Thread nD τ).loc main_arg0) i = (r : EReal))
    (h1 : ∀ i, ∃ r : ℝ, m ((c : Thread nD τ).loc main_arg1) i = (r : EReal))
    (h2 : ∀ i, ∃ r : ℝ, m ((c : Thread nD τ).loc main_arg2) i = (r : EReal))
    (h3 : ∀ i, ∃ r : ℝ, m ((c : Thread nD τ).loc main_arg3) i = (r : EReal))
    (h4 : ∀ i, ∃ r : ℝ, m ((c : Thread nD τ).loc main_arg4) i = (r : EReal))
    (h5 : ∀ i, ∃ r : ℝ, m ((c : Thread nD τ).loc main_arg5) i = (r : EReal)) :
    shapeCast S16x2048x4096 (outArr m c) shapeCasts_S32768x4096_S16x2048x4096
      = Cert.ReferenceIdeal.Read.val_main_v19 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) := by
  funext i
  obtain ⟨b, s, o, rfl⟩ : ∃ (b : Fin 16) (s : Fin 2048) (o : Fin 4096), i = ix3 b s o := ⟨i 0, i 1, i 2, eq_ix3 i⟩
  have hb : b.val < 16 := b.isLt
  have hs : s.val < 2048 := s.isLt
  have hlt : b.val * 2048 + s.val < 32768 := by omega
  rw [viewed_apply _ b s o ⟨_, hlt⟩ rfl, outArr_apply m c b s o ⟨_, hlt⟩ rfl, Cert.ReferenceIdeal.Entry.result_apply]
  unfold kernelEntry Cert.ReferenceIdeal.Entry.refEntry
  exact (Cert.Spec.law_of_real _ _ _ _ _ _ (fun k => h0 _) (fun k => h1 _) (fun k => h3 _) (h5 _) (h2 _) (h4 _)).symm

/-- The kernel's program, run: it terminates with its result at the output array viewed as [16, 2048, 4096] and its
    arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9)
          = shapeCast S16x2048x4096 (outArr m c) shapeCasts_S32768x4096_S16x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Bridge
-- ==== Proof.Finite.lean ====
/-
  The precondition read back at the extended reals. The predicate says, of each of the six arrays, that every entry
  satisfies |x| < +∞, takes the conjunction over all entries of each array (a reduction by "and" over every axis,
  started at 1), and joins the six one-bit answers by "and". If the joined answer is 1 then each of the six is 1; a
  conjunction over all entries that is 1 met only 1s; and for an extended real x, |x| = max x (-x) < ⊤ rules out
  both x = ⊤ (then |x| = ⊤) and x = ⊥ (then -x = ⊤), so x is a real number.
-/
import proofs.«169132_j72026601554094_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The scalar shape has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (-x) is below ⊤ is a real number: at ⊤ the maximum is ⊤, and at ⊥
    the negation is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison |x| < +∞ answering 1 makes x a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_eq_top] at h
  unfold Ideal.cmp at h
  refine real_of_abs_lt_top x ?_
  by_contra hn
  simp [hn] at h

/-- One array of any shape: if the conjunction over all entries of |x| < +∞ is 1, every entry is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ValueIdx.ix0 = 1#1)
    (i : s.Idx) : ∃ r : ℝ, x i = (r : EReal) :=
  real_of_cmp (x i) (Host.reduce_andi_all _ _ hr hu _ e i)

theorem entries_real [Cert.Pre_finite_inputs.Facts]
    (x0 : FVec Ideal S16x2048x1024 .f32) (x1 : FVec Ideal S4096x1024 .f32) (x2 : FVec Ideal S4096 .f32)
    (x3 : FVec Ideal S4096x1024 .f32) (x4 : FVec Ideal S4096 .f32) (x5 : FVec Ideal S16 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal)) := by
  have e := congrFun h ValueIdx.ix0
  dsimp only [fn, fn_part1] at e
  change IntOp.andi (IntOp.andi (IntOp.andi (IntOp.andi (IntOp.andi _ _) _) _) _) _ = 1#1 at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ e0, real_of_all x1 _ _ _ e1, real_of_all x2 _ _ _ e2,
    real_of_all x3 _ _ _ e3, real_of_all x4 _ _ _ e4, real_of_all x5 _ _ _ e5⟩

end Cert.Finite

end
-- ==== Proof.lean ====
/- The proof of `Cert.Claim` for a batched linear layer whose weight and bias are shifted, per sample, by a
   multiple of a second weight and bias: out(b, s, o) = ∑ₖ x(b,s,k) · (w(o,k) − p(o,k) · lr(b)) + (bias(o) − pbg(o) · lr(b)).
   The reference computes exactly that. The kernel never forms the shifted weight: it flattens the 16 × 2048
   positions to 32768 rows, multiplies them once against each of the two transposed weight matrices, and recombines
   the two products with the per-row rate and the two bias rows, tile by tile of 512 × 512 over a 64 × 8 grid; a
   final view puts the rows back as [16, 2048, 4096].
   The three programs run and leave their arguments unchanged (the two kernel programs by their frame
   certificates, the reference by its run). The idealization rewrote no operation. At the extended reals the two
   idealized programs end with equal results when every input entry is finite: the kernel's tiles are blocks of one
   function of its operand arrays (Proof/Payload, Proof/Rows), those arrays are re-laid arguments (Proof/Operands), the
   reference is read entry by entry (Proof/RefEntry), and the two entries agree by distributivity over the reals
   (Proof/Spec), which is where finiteness (Proof/Finite) is used. -/
import proofs.«169132_j72026601554094_1_alg».proof.Defs
import proofs.«169132_j72026601554094_1_alg».proof.Proof.Gen.Kernel
import proofs.«169132_j72026601554094_1_alg».proof.Proof.Gen.Kernel.Skeleton
import proofs.«169132_j72026601554094_1_alg».proof.Proof.Gen.Kernel.Launch
import proofs.«169132_j72026601554094_1_alg».proof.Proof.Gen.Kernel.Points
import proofs.«169132_j72026601554094_1_alg».proof.Proof.Gen.Kernel.Frame
import proofs.«169132_j72026601554094_1_alg».proof.Proof.Gen.KernelIdeal
import proofs.«169132_j72026601554094_1_alg».proof.Proof.Gen.KernelIdeal.Skeleton
import proofs.«169132_j72026601554094_1_alg».proof.Proof.Gen.KernelIdeal.Launch
import proofs.«169132_j72026601554094_1_alg».proof.Proof.Gen.KernelIdeal.Points
import proofs.«169132_j72026601554094_1_alg».proof.Proof.Gen.KernelIdeal.Frame
import proofs.«169132_j72026601554094_1_alg».proof.Proof.Gen.ReferenceIdeal
import proofs.«169132_j72026601554094_1_alg».proof.Proof.Gen.ReferenceIdeal.Run
import proofs.«169132_j72026601554094_1_alg».proof.Proof.Gen.ReferenceIdeal.Read
import proofs.«169132_j72026601554094_1_alg».proof.Proof.Gen.Pre_finite_inputs
import proofs.«169132_j72026601554094_1_alg».proof.Proof.Bridge
import proofs.«169132_j72026601554094_1_alg».proof.Proof.Finite
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, all of them finite, both idealized programs end with the reference's
    function of the arguments: the reference by its run, the kernel by its run and the equality of the two entries. -/
theorem algebraic : Cert.algebraic_KernelIdeal_ReferenceIdeal := by
  intro m ρ m' ρ' hpre hagree
  refine ⟨fun c => Cert.ReferenceIdeal.Read.val_main_v19 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Bridge.run m ρ)
    obtain ⟨h0, h1, h2, h3, h4, h5⟩ := Cert.Finite.entries_real _ _ _ _ _ _ (hpre c)
    exact Cert.KernelIdeal.Bridge.result_eq_reference m c h0 h1 h2 h3 h4 h5
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v19_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
